-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S8192x8191 : Shape := ⟨2, ![8192, 8191]⟩
abbrev S8192 : Shape := ⟨1, ![8192]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S8192x8191 : S_.BroadcastsInDim S8192x8191 (![] : Fin 0 → Fin S8192x8191.rank)
  reducesTo_S8192x8191_S_d0_1 : S8192x8191.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S32x1024 .f32) (main_arg1 : FVec F S8192x8191 .f32) (main_arg2 : FVec F S8192 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S8192x8191 .f32 := Host.absf main_arg1
  let main_cst_0 : FVec F S_ .f32 := constant S_ .f32 0x7F800000#32
  let main_v5 : FVec F S8192x8191 .f32 := broadcastInDim S8192x8191 ![] bcast_S_S8192x8191 main_cst_0
  let main_v6 : IVec S8192x8191 1 := cmpf .olt main_v4 main_v5
  let main_c_1 : IVec S_ 1 := constantI S_ 1 1#1
  let main_v7 : IVec S_ 1 := (fun x v => Host.reduce IntOp.andi x v reducesTo_S8192x8191_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S32x1024 : Shape := ⟨2, ![32, 1024]⟩
abbrev S8192x8191 : Shape := ⟨2, ![8192, 8191]⟩
abbrev S8192 : Shape := ⟨1, ![8192]⟩
abbrev S512x1024 : Shape := ⟨2, ![512, 1024]⟩
abbrev S512 : Shape := ⟨1, ![512]⟩
abbrev S32x512 : Shape := ⟨2, ![32, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S8192x8191, .f32⟩
  | .hbm, ⟨2, _⟩ => ⟨S8192, .f32⟩
  | .hbm, ⟨3, _⟩ => ⟨S32x1024, .f32⟩
  | .hbm, ⟨4, _⟩ => ⟨S32x1024, .f32⟩
  | .local _ .vmem, ⟨0, _⟩ => ⟨S32x1024, .f32⟩
  | .local _ .vmem, ⟨1, _⟩ => ⟨S512x1024, .f32⟩
  | .local _ .vmem, ⟨2, _⟩ => ⟨S512x1024, .f32⟩
  | .local _ .vmem, ⟨3, _⟩ => ⟨S512, .f32⟩
  | .local _ .vmem, ⟨4, _⟩ => ⟨S512, .f32⟩
  | .local _ .vmem, ⟨5, _⟩ => ⟨S32x512, .f32⟩
  | .local _ .vmem, ⟨6, _⟩ => ⟨S32x512, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![v0.toNat, c0_i32.toNat]

def cc0_transform_2 (i : grid0.Coords) : Fin 1 → Nat :=
  let arg0 : BitVec 32 := BitVec.ofNat 32 (i 0).val
  let c14_i32 : BitVec 32 := 14#32
  let v0 : BitVec 32 := Scalar.addi c14_i32 arg0
  let c0_i32 : BitVec 32 := 0#32
  ![v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S32x1024_S32x1024_0_0 : ∀ a, (![0, 0] : Fin 2 → Nat) a + S32x1024.size a ≤ S32x1024.size a
  h_S32x1024 : 0 < S32x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S512_S512_0 : ∀ a, (![0] : Fin 1 → Nat) a + S512.size a ≤ S512.size a
  h_S512 : 0 < S512.numel
  shapeCasts_S512_S1x512 : S512.ShapeCasts S1x512
  broadcasts_S1x512_S32x512 : S1x512.Broadcasts S32x512
  inb_S32x512_S32x512_0_0 : ∀ a, (![0, 0] : Fin 2 → Nat) a + S32x512.size a ≤ S32x512.size a
  h_S32x512 : 0 < S32x512.numel
  dot_S32x1024_S512x1024_S32x512_1_1_0_0_n_n_wf : DotDims.WF S32x1024 S512x1024 S32x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x1024.size a
  hwx0_0 : ∀ i : grid0.Coords, EltTy.bits .f32 = 32 ∨ (Rect.block (s := S32x1024) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x1024.size a < S8192x8191.size a
  hwx0_1 : ∀ i : grid0.Coords, EltTy.bits .f32 = 32 ∨ (Rect.unit (s := S8192x8191) (fun a => cc0_transform_1 i a * S512x1024.size a) (fun a => (Pipeline.Clip.of (cc0_transform_1 i a) (S512x1024.size a) (S8192x8191.size a)).extent (S512x1024.size a)) fun a => Pipeline.Clip.inb (Pipeline.Clip.ok_of (hstart0_1 i a))).WholeWords (EltTy.packing .f32)
  hwxs0_1 : ∀ i : grid0.Coords, EltTy.bits .f32 = 32 ∨ (Rect.unit (s := S512x1024) (fun _ => 0) (fun a => (Pipeline.Clip.of (cc0_transform_1 i a) (S512x1024.size a) (S8192x8191.size a)).extent (S512x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .f32 = 32 ∨ (Rect.block (s := S8192) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x1024.size a
  hwx0_3 : ∀ i : grid0.Coords, EltTy.bits .f32 = 32 ∨ (Rect.block (s := S32x1024) S32x512.size (cc0_transform_3 i) (hinb0_3 i)).WholeWords (EltTy.packing .f32)

variable [Facts₀]

def dot_S32x1024_S512x1024_S32x512_1_1_0_0_n_n : DotDims S32x1024 S512x1024 S32x512 where
  lhsContracting := [1]
  rhsContracting := [1]
  lhsNonContracting := [0]
  rhsNonContracting := [0]
  lhsBatch := []
  rhsBatch := []
  wf := dot_S32x1024_S512x1024_S32x512_1_1_0_0_n_n_wf

abbrev win0_0 : Pipeline.Window sig grid0 :=
  Pipeline.Window.ofSpec (Memref.whole main_arg0) S32x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024 : Shape := ⟨2, ![32, 1024]⟩
abbrev S8192x8191 : Shape := ⟨2, ![8192, 8191]⟩
abbrev S8192 : Shape := ⟨1, ![8192]⟩
abbrev S_ : Shape := ⟨0, ![]⟩
abbrev S32x8192 : Shape := ⟨2, ![32, 8192]⟩
abbrev S1 : Shape := ⟨1, ![1]⟩
abbrev S8192x1 : Shape := ⟨2, ![8192, 1]⟩
abbrev S8191 : Shape := ⟨1, ![8191]⟩
abbrev S1x8191 : Shape := ⟨2, ![1, 8191]⟩
abbrev S8192x8192 : Shape := ⟨2, ![8192, 8192]⟩
abbrev S8192x8191x1 : Shape := ⟨3, ![8192, 8191, 1]⟩
abbrev S8192x8191x2 : Shape := ⟨3, ![8192, 8191, 2]⟩
abbrev S1x8192 : Shape := ⟨2, ![1, 8192]⟩

abbrev nBuf : Space → Nat
  | .hbm => 46
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S8192x8191, .f32⟩
  | .hbm, ⟨2, _⟩ => ⟨S8192, .f32⟩
  | .hbm, ⟨3, _⟩ => ⟨S_, .f32⟩
  | .hbm, ⟨4, _⟩ => ⟨S32x8192, .f32⟩
  | .hbm, ⟨5, _⟩ => ⟨S_, .i32⟩
  | .hbm, ⟨6, _⟩ => ⟨S1, .i32⟩
  | .hbm, ⟨7, _⟩ => ⟨S32x8192, .f32⟩
  | .hbm, ⟨8, _⟩ => ⟨S8192, .i32⟩
  | .hbm, ⟨9, _⟩ => ⟨S8192x1, .i32⟩
  | .hbm, ⟨10, _⟩ => ⟨S8191, .i32⟩
  | .hbm, ⟨11, _⟩ => ⟨S1x8191, .i32⟩
  | .hbm, ⟨12, _⟩ => ⟨S8192x8191, .i32⟩
  | .hbm, ⟨13, _⟩ => ⟨S8192x8191, .i32⟩
  | .hbm, ⟨14, _⟩ => ⟨S8192x8191, .i1⟩
  | .hbm, ⟨15, _⟩ => ⟨S8192x8191, .i32⟩
  | .hbm, ⟨16, _⟩ => ⟨S8192x8191, .i32⟩
  | .hbm, ⟨17, _⟩ => ⟨S8192x8191, .i32⟩
  | .hbm, ⟨18, _⟩ => ⟨S_, .f32⟩
  | .hbm, ⟨19, _⟩ => ⟨S8192x8192, .f32⟩
  | .hbm, ⟨20, _⟩ => ⟨S_, .i32⟩
  | .hbm, ⟨21, _⟩ => ⟨S8192x1, .i32⟩
  | .hbm, ⟨22, _⟩ => ⟨S8192x1, .i1⟩
  | .hbm, ⟨23, _⟩ => ⟨S_, .i32⟩
  | .hbm, ⟨24, _⟩ => ⟨S8192x1, .i32⟩
  | .hbm, ⟨25, _⟩ => ⟨S8192x1, .i32⟩
  | .hbm, ⟨26, _⟩ => ⟨S8192x1, .i32⟩
  | .hbm, ⟨27, _⟩ => ⟨S_, .i32⟩
  | .hbm, ⟨28, _⟩ => ⟨S8192x8191, .i32⟩
  | .hbm, ⟨29, _⟩ => ⟨S8192x8191, .i1⟩
  | .hbm, ⟨30, _⟩ => ⟨S_, .i32⟩
  | .hbm, ⟨31, _⟩ => ⟨S8192x8191, .i32⟩
  | .hbm, ⟨32, _⟩ => ⟨S8192x8191, .i32⟩
  | .hbm, ⟨33, _⟩ => ⟨S8192x8191, .i32⟩
  | .hbm, ⟨34, _⟩ => ⟨S8192x8191, .i32⟩
  | .hbm, ⟨35, _⟩ => ⟨S8192x8191x1, .i32⟩
  | .hbm, ⟨36, _⟩ => ⟨S8192x8191x1, .i32⟩
  | .hbm, ⟨37, _⟩ => ⟨S8192x8191x2, .i32⟩
  | .hbm, ⟨38, _⟩ => ⟨S8192x8192, .f32⟩
  | .hbm, ⟨39, _⟩ => ⟨S8192x8192, .f32⟩
  | .hbm, ⟨40, _⟩ => ⟨S32x8192, .f32⟩
  | .hbm, ⟨41, _⟩ => ⟨S1x8192, .f32⟩
  | .hbm, ⟨42, _⟩ => ⟨S32x8192, .f32⟩
  | .hbm, ⟨43, _⟩ => ⟨S32x8192, .f32⟩
  | .hbm, ⟨44, _⟩ => ⟨S32x1024, .f32⟩
  | .hbm, ⟨45, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  bcast_S_S32x8192 : S_.BroadcastsInDim S32x8192 (![] : Fin 0 → Fin S32x8192.rank)
  bcast_S_S1 : S_.BroadcastsInDim S1 (![] : Fin 0 → Fin S1.rank)
  bcast_S8192_S8192x1_0 : S8192.BroadcastsInDim S8192x1 (![0] : Fin 1 → Fin S8192x1.rank)
  bcast_S8191_S1x8191_1 : S8191.BroadcastsInDim S1x8191 (![1] : Fin 1 → Fin S1x8191.rank)
  bcast_S1x8191_S8192x8191_0_1 : S1x8191.BroadcastsInDim S8192x8191 (![0, 1] : Fin 2 → Fin S8192x8191.rank)
  bcast_S8192x1_S8192x8191_0_1 : S8192x1.BroadcastsInDim S8192x8191 (![0, 1] : Fin 2 → Fin S8192x8191.rank)
  natLt_1_32 : 1 < 32
  bcast_S_S8192x8192 : S_.BroadcastsInDim S8192x8192 (![] : Fin 0 → Fin S8192x8192.rank)
  bcast_S_S8192x1 : S_.BroadcastsInDim S8192x1 (![] : Fin 0 → Fin S8192x1.rank)
  bcast_S_S8192x8191 : S_.BroadcastsInDim S8192x8191 (![] : Fin 0 → Fin S8192x8191.rank)
  bcast_S8192x8191_S8192x8191x1_0_1 : S8192x8191.BroadcastsInDim S8192x8191x1 (![0, 1] : Fin 2 → Fin S8192x8191x1.rank)
  concatenates_S8192x8191x1_S8192x8191x1_S8192x8191x2_d2 : Shape.Concatenates [S8192x8191x1, S8192x8191x1] S8192x8191x2 2
  transposes_S8192x8192_S8192x8192_1_0 : S8192x8192.Transposes [1, 0] S8192x8192
  bcast_S8192_S1x8192_1 : S8192.BroadcastsInDim S1x8192 (![1] : Fin 1 → Fin S1x8192.rank)
  bcast_S1x8192_S32x8192_0_1 : S1x8192.BroadcastsInDim S32x8192 (![0, 1] : Fin 2 → Fin S32x8192.rank)
  slices_S32x8192_S32x1024_0_7168 : S32x8192.Slices ![0, 7168] S32x1024
  scatter_S32x8192_S1_S32x1024_01_n_1_0_wf : ScatterDims.WF S32x8192 S1 S32x1024 [0, 1] [] [1] 0
  scatter_S8192x8192_S8192x8191x2_S8192x8191_n_01_01_2_wf : ScatterDims.WF S8192x8192 S8192x8191x2 S8192x8191 [] [0, 1] [0, 1] 2
  dot_S32x8192_S8192x8192_S32x8192_1_0_0_1_n_n_wf : DotDims.WF S32x8192 S8192x8192 S32x8192 [1] [0] [0] [1] [] []

variable [Facts₀]

def scatter_S32x8192_S1_S32x1024_01_n_1_0 : ScatterDims S32x8192 S1 S32x1024 where
  updateWindowDims := [0, 1]
  insertedWindowDims := []
  scatterDimsToOperandDims := [1]
  indexVectorDim := 0
  wf := scatter_S32x8192_S1_S32x1024_01_n_1_0_wf
def scatter_S8192x8192_S8192x8191x2_S8192x8191_n_01_01_2 : ScatterDims S8192x8192 S8192x8191x2 S8192x8191 where
  updateWindowDims := []
  insertedWindowDims := [0, 1]
  scatterDimsToOperandDims := [0, 1]
  indexVectorDim := 2
  wf := scatter_S8192x8192_S8192x8191x2_S8192x8191_n_01_01_2_wf
def dot_S32x8192_S8192x8192_S32x8192_1_0_0_1_n_n : DotDims S32x8192 S8192x8192 S32x8192 where
  lhsContracting := [1]
  rhsContracting := [0]
  lhsNonContracting := [0]
  rhsNonContracting := [1]
  lhsBatch := []
  rhsBatch := []
  wf := dot_S32x8192_S8192x8192_S32x8192_1_0_0_1_n_n_wf

class Facts : Prop extends Facts₀ where

variable [Facts]
-- ==== Proof.BodyBits.lean ====
/-
  The frame of the kernel's pallas_call as printed, at any float instance (the claim reads it at the word level).

  The call runs a grid of two points.  At point t the pipeline stages all of x ([32, 1024]), rows
  (14 + t)·512 … (14 + t)·512 + 511 of the weight table restricted to its first 1024 columns (a
  [512, 1024] block of the [8192, 8191] array), the same 512 entries of the bias, and after the body writes
  the [32, 512] result block back to columns 512·t … 512·t + 511 of the [32, 1024] result.  The weight
  table's width 8191 is not a multiple of the block width 1024, so its window is stated with blocks that may
  be cut at the array's end; at the two points the grid visits, the block (columns 0 … 1023) lies inside the
  array, no cut happens, and the staging buffer holds exactly the block whatever it held before.

  The body loads the three input buffers whole, forms  x · wᵀ + bias  (the payload of its one store) and stores
  it over the whole result buffer.  This file states what each staging buffer holds after the body at each
  point, proves the body's triple and the pipeline's body obligation from it, and concludes the run of the
  whole program: the call followed by the column reversal.
-/
import proofs.«109058_j21457656611332_2_alg».proof.Proof.Gen.Kernel.Frame
import proofs.«109058_j21457656611332_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each one the whole of its buffer -/

abbrev rx : Rect S32x1024 := Rect.unit (s := S32x1024) ![0, 0] S32x1024.size inb_S32x1024_S32x1024_0_0
abbrev rw : Rect S512x1024 := Rect.unit (s := S512x1024) ![0, 0] S512x1024.size inb_S512x1024_S512x1024_0_0
abbrev rb : Rect S512 := Rect.unit (s := S512) ![0] S512.size inb_S512_S512_0
abbrev ro : Rect S32x512 := Rect.unit (s := S32x512) ![0, 0] S32x512.size inb_S32x512_S32x512_0_0

/-! ## What the body leaves in the result's staging buffer -/

/-- The result's staging buffer after the body, from the contents of the three input buffers: its one store, of
    the payload x · wᵀ + bias, over the whole buffer. -/
def outBlock (x0 : Vec F S32x1024 .f32) (x1 : Vec F S512x1024 .f32) (x2 : Vec F S512 .f32) : Vec F S32x512 .f32 :=
  View.canon [⟨ro, k0_pay1 (View.ld x0 rx) (View.ld x1 rw) (View.ld x2 rb)⟩]

/-- The one store covers the buffer. -/
theorem outBlock_cover (p0 : Vec F S32x512 .f32) (y : S32x512.Idx) :
    ∃ pc ∈ ([⟨ro, p0⟩] : List (View.Piece (Elt F) S32x512 .f32)), y ∈ pc.1.set :=
  View.cover_of_tiled [⟨ro, p0⟩] S32x512.size (by rfl) y

/-! ## The body's triple -/

set_option maxHeartbeats 1000000 in
/-- The kernel body on whole staging memrefs — the inputs' at contents x0, x1, x2, the result's at anything — runs to
    the continuation holding the inputs' as they were and the result's at `outBlock x0 x1 x2`. -/
theorem sound_kernel (c : Dev nD) (E : Set ℕ) (i : grid0.Coords)
    (arg1 : Memref sig .tc .vmem S32x1024 .f32) (harg1 : arg1.IsWhole)
    (arg2 : Memref sig .tc .vmem S512x1024 .f32) (harg2 : arg2.IsWhole)
    (arg3 : Memref sig .tc .vmem S512 .f32) (harg3 : arg3.IsWhole)
    (arg4 : Memref sig .tc .vmem S32x512 .f32) (harg4 : arg4.IsWhole)
    (x0 : Vec F S32x1024 .f32) (x1 : Vec F S512x1024 .f32) (x2 : Vec F S512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (outBlock x0 x1 x2)) -∗ K ⟨⟩))
      ⊢ wp frame (wpE (defs₀ (F := F)) Variants.none c none) E (cc0__msg_kernel i arg1 harg1 arg2 harg2 arg3 harg3 arg4 harg4) K := by
  simp only [cc0__msg_kernel_eq_skeleton]; unfold cc0__msg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-! ## The pipeline's proof data -/

/-- At neither point of the grid is the weight window's block cut. -/
theorem wclip_none : ∀ (t : Fin cfg0.N) (a : Fin 2), (cfg0.win 1).clip (cfg0.grid.coords t) a = none :=
  (by decide +kernel : ∀ (t : Fin grid0.N) (a : Fin 2), win0_1.clip (grid0.coords t) a = none)

/-- The weight window's staging buffer at point t: its block, laid over a buffer of zero words (none of which
    remains, the block being uncut). -/
def wblock (c : Dev nD) (t : Fin cfg0.N) : Vec F S512x1024 .f32 :=
  (cfg0.win 1).fill (cfg0.grid.coords t) (fun _ => Scalar.ofBits .f32 0#32) (iblk m c 1 t)

/-- The proof data of the pipeline on core c: the arrays as the region finds them; after the body at point t each
    input's buffer at its block and the result's at `outBlock` of the three; the invariant the untouched scoped rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblock m c t
    | ⟨2, _⟩ => iblk m c 2 t
    | ⟨3, _⟩ => outBlock (iblk m c 0 t) (wblock m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = wblock m c t := by dsimp only [dats]
theorem after_b (c : Dev nD) (t : Fin cfg0.N) : (dats m 0 c).after 2 t = iblk m c 2 t := by dsimp only [dats]
theorem after_o (c : Dev nD) (t : Fin cfg0.N) :
    (dats m 0 c).after 3 t = outBlock (iblk m c 0 t) (wblock m c t) (iblk m c 2 t) := by dsimp only [dats]

/-- x's and the bias's buffers hold their blocks at every point, fetched there or not. -/
theorem before_x (c : Dev nD) (t : Fin cfg0.N) (d) : (dats m 0 c).before 0 t d = iblk m c 0 t :=
  before0_0_of m (dats m 0 c) (A_eq m c 0) (after_x m c) t d
theorem before_b (c : Dev nD) (t : Fin cfg0.N) (d) : (dats m 0 c).before 2 t d = iblk m c 2 t :=
  before0_2_of m (dats m 0 c) (A_eq m c 2) (after_b m c) t d
/-- The weight window is fetched at every point, and the fetch, uncut, leaves nothing of what the buffer held. -/
theorem before_w (c : Dev nD) (t : Fin cfg0.N) (d) : (dats m 0 c).before 1 t d = wblock m c t := by
  unfold Dat.before
  rw [if_pos (fetch0_1 t)]
  unfold Dat.fetched Dat.blockOf wblock iblk
  rw [A_eq]
  exact Pipeline.fill_of_clip_none (cfg := cfg0) 1 _ (wclip_none t) _ _ _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).Φ t.succ = (dats m 0 c).Φ t.castSucc from rfl,
    show (dats m 0 c).owesAt () t.succ = (dats m 0 c).owesAt () t.castSucc from rfl,
    after_x, after_w, after_b, after_o]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (wblock m c t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of the program terminates, every
    array of the pipeline ends at what the proof data computes and every other unscoped buffer as the column reversal
    after the call leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end without a fault and leaves its three argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.BodyIdeal.lean ====
/-
  The frame of the idealized kernel's pallas_call, at any float instance.

  The call runs a grid of two points.  At point t the pipeline stages all of x ([32, 1024]), rows
  (14 + t)·512 … (14 + t)·512 + 511 of the weight table restricted to its first 1024 columns (a
  [512, 1024] block of the [8192, 8191] array), the same 512 entries of the bias, and after the body writes
  the [32, 512] result block back to columns 512·t … 512·t + 511 of the [32, 1024] result.  The weight
  table's width 8191 is not a multiple of the block width 1024, so its window is stated with blocks that may
  be cut at the array's end; at the two points the grid visits, the block (columns 0 … 1023) lies inside the
  array, no cut happens, and the staging buffer holds exactly the block whatever it held before.

  The body loads the three input buffers whole, forms  x · wᵀ + bias  (the payload of its one store) and stores
  it over the whole result buffer.  This file states what each staging buffer holds after the body at each
  point, proves the body's triple and the pipeline's body obligation from it, and concludes the run of the
  whole program: the call followed by the column reversal.
-/
import proofs.«109058_j21457656611332_2_alg».proof.Proof.Gen.KernelIdeal.Frame
import proofs.«109058_j21457656611332_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each one the whole of its buffer -/

abbrev rx : Rect S32x1024 := Rect.unit (s := S32x1024) ![0, 0] S32x1024.size inb_S32x1024_S32x1024_0_0
abbrev rw : Rect S512x1024 := Rect.unit (s := S512x1024) ![0, 0] S512x1024.size inb_S512x1024_S512x1024_0_0
abbrev rb : Rect S512 := Rect.unit (s := S512) ![0] S512.size inb_S512_S512_0
abbrev ro : Rect S32x512 := Rect.unit (s := S32x512) ![0, 0] S32x512.size inb_S32x512_S32x512_0_0

/-! ## What the body leaves in the result's staging buffer -/

/-- The result's staging buffer after the body, from the contents of the three input buffers: its one store, of
    the payload x · wᵀ + bias, over the whole buffer. -/
def outBlock (x0 : Vec F S32x1024 .f32) (x1 : Vec F S512x1024 .f32) (x2 : Vec F S512 .f32) : Vec F S32x512 .f32 :=
  View.canon [⟨ro, k0_pay1 (View.ld x0 rx) (View.ld x1 rw) (View.ld x2 rb)⟩]

/-- The one store covers the buffer. -/
theorem outBlock_cover (p0 : Vec F S32x512 .f32) (y : S32x512.Idx) :
    ∃ pc ∈ ([⟨ro, p0⟩] : List (View.Piece (Elt F) S32x512 .f32)), y ∈ pc.1.set :=
  View.cover_of_tiled [⟨ro, p0⟩] S32x512.size (by rfl) y

/-! ## The body's triple -/

set_option maxHeartbeats 1000000 in
/-- The kernel body on whole staging memrefs — the inputs' at contents x0, x1, x2, the result's at anything — runs to
    the continuation holding the inputs' as they were and the result's at `outBlock x0 x1 x2`. -/
theorem sound_kernel (c : Dev nD) (E : Set ℕ) (i : grid0.Coords)
    (arg1 : Memref sig .tc .vmem S32x1024 .f32) (harg1 : arg1.IsWhole)
    (arg2 : Memref sig .tc .vmem S512x1024 .f32) (harg2 : arg2.IsWhole)
    (arg3 : Memref sig .tc .vmem S512 .f32) (harg3 : arg3.IsWhole)
    (arg4 : Memref sig .tc .vmem S32x512 .f32) (harg4 : arg4.IsWhole)
    (x0 : Vec F S32x1024 .f32) (x1 : Vec F S512x1024 .f32) (x2 : Vec F S512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (outBlock x0 x1 x2)) -∗ K ⟨⟩))
      ⊢ wp frame (wpE (defs₀ (F := F)) Variants.none c none) E (cc0__msg_kernel i arg1 harg1 arg2 harg2 arg3 harg3 arg4 harg4) K := by
  simp only [cc0__msg_kernel_eq_skeleton]; unfold cc0__msg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-! ## The pipeline's proof data -/

/-- At neither point of the grid is the weight window's block cut. -/
theorem wclip_none : ∀ (t : Fin cfg0.N) (a : Fin 2), (cfg0.win 1).clip (cfg0.grid.coords t) a = none :=
  (by decide +kernel : ∀ (t : Fin grid0.N) (a : Fin 2), win0_1.clip (grid0.coords t) a = none)

/-- The weight window's staging buffer at point t: its block, laid over a buffer of zero words (none of which
    remains, the block being uncut). -/
def wblock (c : Dev nD) (t : Fin cfg0.N) : Vec F S512x1024 .f32 :=
  (cfg0.win 1).fill (cfg0.grid.coords t) (fun _ => Scalar.ofBits .f32 0#32) (iblk m c 1 t)

/-- The proof data of the pipeline on core c: the arrays as the region finds them; after the body at point t each
    input's buffer at its block and the result's at `outBlock` of the three; the invariant the untouched scoped rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblock m c t
    | ⟨2, _⟩ => iblk m c 2 t
    | ⟨3, _⟩ => outBlock (iblk m c 0 t) (wblock m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = wblock m c t := by dsimp only [dats]
theorem after_b (c : Dev nD) (t : Fin cfg0.N) : (dats m 0 c).after 2 t = iblk m c 2 t := by dsimp only [dats]
theorem after_o (c : Dev nD) (t : Fin cfg0.N) :
    (dats m 0 c).after 3 t = outBlock (iblk m c 0 t) (wblock m c t) (iblk m c 2 t) := by dsimp only [dats]

/-- x's and the bias's buffers hold their blocks at every point, fetched there or not. -/
theorem before_x (c : Dev nD) (t : Fin cfg0.N) (d) : (dats m 0 c).before 0 t d = iblk m c 0 t :=
  before0_0_of m (dats m 0 c) (A_eq m c 0) (after_x m c) t d
theorem before_b (c : Dev nD) (t : Fin cfg0.N) (d) : (dats m 0 c).before 2 t d = iblk m c 2 t :=
  before0_2_of m (dats m 0 c) (A_eq m c 2) (after_b m c) t d
/-- The weight window is fetched at every point, and the fetch, uncut, leaves nothing of what the buffer held. -/
theorem before_w (c : Dev nD) (t : Fin cfg0.N) (d) : (dats m 0 c).before 1 t d = wblock m c t := by
  unfold Dat.before
  rw [if_pos (fetch0_1 t)]
  unfold Dat.fetched Dat.blockOf wblock iblk
  rw [A_eq]
  exact Pipeline.fill_of_clip_none (cfg := cfg0) 1 _ (wclip_none t) _ _ _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).Φ t.succ = (dats m 0 c).Φ t.castSucc from rfl,
    show (dats m 0 c).owesAt () t.succ = (dats m 0 c).owesAt () t.castSucc from rfl,
    after_x, after_w, after_b, after_o]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (wblock m c t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of the program terminates, every
    array of the pipeline ends at what the proof data computes and every other unscoped buffer as the column reversal
    after the call leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end without a fault and leaves its three argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.LibTransposedProduct.lean ====
/-
  A matrix product with the right operand stored output-major, read at an entry.

  For the dimension numbers of an M×K by N×K product (both operands contracted on their columns, no batch
  axis), the vector unit's product into a zero accumulator and the host's general dot product, read at the
  ideal values at row `p` and column `c`, are both the sum over `k : Fin K` of `l (p, k) · r (c, k)`: the
  contraction's one-axis index set is re-indexed by its coordinate, and the two operand indices at an output
  index are computed axis by axis.
-/
import Idealize.ShloMosaic.PureOps.Ideal.Laws
import Idealize.ShloMosaic.Lib.ValueIdx

noncomputable section

open scoped BigOperators

namespace Idealize.ShloMosaic.TransposedProduct

open Idealize.ShloMosaic Idealize.ShloMosaic.ValueIdx

variable {M K N : Nat}

/-- The left operand's row at an output index is the output's row. -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column is the contraction's coordinate. -/
theorem lhs_col (i : (⟨2, ![M, N]⟩ : Shape).Idx) (q : (DotDims.transposedRhs M K N).contr.Idx) :
    ((DotDims.transposedRhs M K N).lhsIdx i q 1).val = (q ⟨0, (DotDims.transposedRhs M K N).rank_contr ▸ Nat.one_pos⟩).val :=
  (DotDims.transposedRhs M K N).lhsIdx_val_of_single rfl i q

/-- The right operand's row at an output index is the output's column. -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column is the contraction's coordinate. -/
theorem rhs_col (i : (⟨2, ![M, N]⟩ : Shape).Idx) (q : (DotDims.transposedRhs M K N).contr.Idx) :
    ((DotDims.transposedRhs M K N).rhsIdx i q 1).val = (q ⟨0, (DotDims.transposedRhs M K N).rank_contr ▸ Nat.one_pos⟩).val :=
  (DotDims.transposedRhs M K N).rhsIdx_val_of_single rfl i q

/-- The contraction's sum at entry `(p, c)` is the sum over `k` of `l (p, k) · r (c, k)`. -/
theorem sum_contr (l : (⟨2, ![M, K]⟩ : Shape).Idx → EReal) (r : (⟨2, ![N, K]⟩ : Shape).Idx → EReal) (p : Fin M) (c : Fin N) :
    ∑ k : (DotDims.transposedRhs M K N).contr.Idx,
        l ((DotDims.transposedRhs M K N).lhsIdx (ix2 p c) k) * r ((DotDims.transposedRhs M K N).rhsIdx (ix2 p c) k)
      = ∑ k : Fin K, l (ix2 p k) * r (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p c) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p c) ((contrEquiv1 (DotDims.transposedRhs M K N) K rfl rfl).symm k) = ix2 c k :=
    funext fun a => Fin.ext (by
      match a with
      | ⟨0, _⟩ => exact rhs_row _ _
      | ⟨1, _⟩ => exact (rhs_col _ _).trans hk)
  rw [el, er]

/-- The vector unit's product into a zero accumulator at entry `(p, c)`. -/
theorem matmul_zero_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ k : Fin K, l (ix2 p k) * r (ix2 c k) := by
  subst hd
  simp only [matmul]
  rw [Ideal.matmul_constant_zero_apply]
  exact sum_contr l r p c

/-- The host's general dot product at entry `(p, c)`. -/
theorem dotGeneral_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (c : Fin N) :
    (Host.dotGeneral d prec l r : FVec Ideal ⟨2, ![M, N]⟩ .f32) (ix2 p c) = ∑ k : Fin K, l (ix2 p k) * r (ix2 c k) := by
  subst hd
  simp only [Host.dotGeneral]
  rw [Ideal.dotGeneral_apply]
  exact sum_contr l r p c

end Idealize.ShloMosaic.TransposedProduct

end
-- ==== Proof.Payload.lean ====
/-
  The body's one stored value at an entry, at the ideal values.

  The body truncates x ([32, 1024]) and its weight block w ([512, 1024]) to the narrower float format — the
  identity on extended reals —, multiplies them on the matrix unit into a zero accumulator contracting the
  columns of both (x · wᵀ), and adds the bias block ([512]) laid out as one row and repeated down the 32
  rows.  So entry (p, q) of the stored value is  ∑ k < 1024, x(p, k) · w(q, k)  +  bias(q).
-/
import proofs.«109058_j21457656611332_2_alg».proof.Proof.Gen.KernelIdeal.Skeleton
import proofs.«109058_j21457656611332_2_alg».proof.Proof.LibTransposedProduct
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- Entry (p, q) of the value the body stores: the dot product of row p of x with row q of the weight block, plus
    entry q of the bias block. -/
theorem pay_apply (x0 : Vec Ideal S32x1024 .f32) (x1 : Vec Ideal S512x1024 .f32) (x2 : Vec Ideal S512 .f32)
    (p : Fin 32) (q : Fin 512) :
    k0_pay1 (F := Ideal) x0 x1 x2 (ix2 p q) = (∑ k : Fin 1024, x0 (ix2 p k) * x1 (ix2 q k)) + x2 (ix1 q) := by
  unfold k0_pay1
  refine (addf_apply _ _ _).trans ?_
  refine congrArg₂ (· + ·) ?_ ?_
  · exact TransposedProduct.matmul_zero_apply _ rfl none _ _ p q
  · exact (broadcastTo_1b_ab_apply _ _ p q).trans (shapeCast_a_1a_apply _ _ 0 q)

end Cert.KernelIdeal.Payload

end
-- ==== Proof.Spec.lean ====
/-
  The common value of the two programs, index by index.

  The reference lays x into the first 1024 of 8192 state columns, spreads the [8192, 8191] weight table
  into an [8192, 8192] matrix with an empty diagonal (column j of row n goes to column j, or to j + 1 from
  the diagonal on), multiplies the state by that matrix's transpose, adds the bias, and keeps the last
  1024 output columns.  For an output column n ≥ 7168 and a state column j < 1024 one has j < n, so the
  matrix entry (n, j) is the table's entry (n, j); every state column from 1024 on is zero.  What is left
  is the dense layer below: row p, column c of the kept block is
    ∑ k < 1024, x(p, k) · w(7168 + c, k)  +  b(7168 + c).
  (Both programs then reverse the columns; that last step is the same operation on both sides.)
-/
import Idealize.ShloMosaic.PureOps.Ideal
import Idealize.ShloMosaic.Lib.ValueIdx

noncomputable section

namespace Cert.TailDense

open Idealize.ShloMosaic Idealize.ShloMosaic.ValueIdx

/-- Row 7168 + c of the weight table, for a kept column c < 1024. -/
abbrev wrow (c : Fin 1024) : Fin 8192 := ⟨7168 + c.val, by have := c.isLt; omega⟩
/-- A state column k < 1024 as a column of the 8191-wide weight table. -/
abbrev wcol (k : Fin 1024) : Fin 8191 := ⟨k.val, by have := k.isLt; omega⟩

/-- The dense layer on the last 1024 output nodes: entry (p, c) is the dot product of row p of x with the
    first 1024 entries of row 7168 + c of the weight table, plus that node's bias. -/
def tail (x : (⟨2, ![32, 1024]⟩ : Shape).Idx → EReal) (w : (⟨2, ![8192, 8191]⟩ : Shape).Idx → EReal)
    (b : (⟨1, ![8192]⟩ : Shape).Idx → EReal) : (⟨2, ![32, 1024]⟩ : Shape).Idx → EReal :=
  fun i => (∑ k : Fin 1024, x (ix2 (i 0) k) * w (ix2 (wrow (i 1)) (wcol k))) + b (ix1 (wrow (i 1)))

theorem tail_apply (x : (⟨2, ![32, 1024]⟩ : Shape).Idx → EReal) (w : (⟨2, ![8192, 8191]⟩ : Shape).Idx → EReal)
    (b : (⟨1, ![8192]⟩ : Shape).Idx → EReal) (p : Fin 32) (c : Fin 1024) :
    tail x w b (ix2 p c) = (∑ k : Fin 1024, x (ix2 p k) * w (ix2 (wrow c) (wcol k))) + b (ix1 (wrow c)) := rfl

end Cert.TailDense

end
-- ==== Proof.ValueIdeal.lean ====
/-
  What the idealized kernel's program computes, as one function of its three argument arrays.

  Point t of the grid writes back a [32, 512] block to columns 512·t … 512·t + 511 of the call's [32, 1024]
  result.  Entry (p, q) of that block is the stored value at (p, q) of the blocks the point staged: all of x,
  rows 7168 + 512·t … of the weight table (its first 1024 columns) and the same entries of the bias.  That is
  entry (p, 512·t + q) of the dense layer on the last 1024 output nodes (`Cert.TailDense.tail`), so each point
  writes back its block of that one array; the two blocks cover the result, which therefore ends holding it.
  The program's result is that array with its columns reversed.
-/
import proofs.«109058_j21457656611332_2_alg».proof.Proof.BodyIdeal
import proofs.«109058_j21457656611332_2_alg».proof.Proof.Payload
import proofs.«109058_j21457656611332_2_alg».proof.Proof.Spec
import Idealize.ShloMosaic.Lib.Pipeline.Value
import Idealize.ShloMosaic.Lib.StableHlo.Run

set_option maxRecDepth 16384

noncomputable section

namespace Cert.KernelIdeal.TailValue

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The dense layer of the argument arrays as the region finds them: what the call's result ends holding. -/
abbrev dense (c : Dev nD) : S32x1024.Idx → EReal :=
  Cert.TailDense.tail (V m c main_arg0) (V m c main_arg1) (V m c main_arg2)

/-- The printed index maps over the grid: x's block is the whole array; the weight and bias blocks sit 14 blocks
    of 512 rows (7168 rows) past the result's column block; the result's blocks are the two column halves. -/
theorem idx_facts : ∀ t : Fin cfg0.N, win0_0.index t (0 : Fin 2) = 0 ∧ win0_0.index t (1 : Fin 2) = 0
    ∧ win0_1.index t (0 : Fin 2) = 14 + win0_3.index t (1 : Fin 2) ∧ win0_1.index t (1 : Fin 2) = 0
    ∧ win0_2.index t (0 : Fin 1) = 14 + win0_3.index t (1 : Fin 2)
    ∧ win0_3.index t (0 : Fin 2) = 0 ∧ win0_3.index t (1 : Fin 2) ≤ 1 :=
  (by decide +kernel : ∀ t : Fin grid0.N, _)

/-- Both column halves are some point's. -/
theorem idx_onto : ∀ q1 : Fin 2, ∃ t : Fin cfg0.N, win0_3.index t = ![0, q1.val] :=
  (by decide +kernel : ∀ q1 : Fin 2, ∃ t : Fin grid0.N, win0_3.index t = ![0, q1.val])

/-- x's staged block at (p, k) is x at (p, k). -/
theorem xblock_apply (c : Dev nD) (t : Fin cfg0.N) (p : Fin 32) (k : Fin 1024) :
    iblk m c 0 t (ix2 p k) = V m c main_arg0 (ix2 p k) := by
  obtain ⟨e0, e1, -⟩ := idx_facts t
  show V m c main_arg0 (((cfg0.win 0).blk t).view.emb (ix2 p k)) = _
  refine congrArg _ (funext fun a => Fin.ext ?_)
  match a with
  | ⟨0, _⟩ => show win0_0.index t (0 : Fin 2) * 32 + 1 * p.val = p.val; omega
  | ⟨1, _⟩ => show win0_0.index t (1 : Fin 2) * 1024 + 1 * k.val = k.val; omega

/-- The bias's staged block at q is the bias at 7168 + 512·(the point's column block) + q. -/
theorem bblock_apply (c : Dev nD) (t : Fin cfg0.N) (q : Fin 512) (r : Fin 8192)
    (hr : r.val = 7168 + win0_3.index t (1 : Fin 2) * 512 + q.val) :
    iblk m c 2 t (ix1 q) = V m c main_arg2 (ix1 r) := by
  obtain ⟨-, -, -, -, e4, -⟩ := idx_facts t
  show V m c main_arg2 (((cfg0.win 2).blk t).view.emb (ix1 q)) = _
  refine congrArg _ (funext fun a => Fin.ext ?_)
  match a with
  | ⟨0, _⟩ => show win0_2.index t (0 : Fin 1) * 512 + 1 * q.val = r.val; omega

/-- The weight window's staged block at (q, k) is the weight table at (7168 + 512·(the point's column block) + q, k). -/
theorem wblock_apply (c : Dev nD) (t : Fin cfg0.N) (q : Fin 512) (k : Fin 1024) (r : Fin 8192) (k' : Fin 8191)
    (hr : r.val = 7168 + win0_3.index t (1 : Fin 2) * 512 + q.val) (hk : k'.val = k.val) :
    wblock m c t (ix2 q k) = V m c main_arg1 (ix2 r k') := by
  obtain ⟨-, -, e2, e3, -⟩ := idx_facts t
  have hm : (cfg0.win 1).moved (cfg0.grid.coords t) (ix2 q k) = true :=
    ((cfg0.win 1).moved_iff _ _).mpr fun a => by
      have := (ix2 q k a).isLt; unfold Pipeline.Window.xsize; rw [wclip_none t a]; exact this
  unfold wblock Pipeline.Window.fill
  rw [dif_pos hm]
  show V m c main_arg1 (((cfg0.win 1).blk t).view.emb _) = _
  refine congrArg _ (funext fun a => Fin.ext ?_)
  match a with
  | ⟨0, _⟩ => show win0_1.index t (0 : Fin 2) * 512 + 1 * q.val = r.val; omega
  | ⟨1, _⟩ => show win0_1.index t (1 : Fin 2) * 1024 + 1 * k.val = k'.val; omega

/-- What point t writes back is block t of the dense layer. -/
theorem flushed_eq (c : Dev nD) (t : Fin cfg0.N) :
    (dats m 0 c).flushed 3 t = ((cfg0.win 3).blk t).view.read (Elt Ideal) (dense m c) := by
  show (cfg0.win 3).cut (grid0.coords t) ((dats m 0 c).after 3 t) = _
  rw [after_o]
  unfold outBlock
  rw [View.canon_unit_zero hz2]
  simp only [View.ld_unit_zero (S := S32x1024) hz2, View.ld_unit_zero (S := S512x1024) hz2, View.ld_unit_zero (S := S512) hz1]
  funext j
  obtain ⟨p, q, rfl⟩ : ∃ (p : Fin 32) (q : Fin 512), j = ix2 p q := ⟨j 0, j 1, eq_ix2 j⟩
  obtain ⟨-, -, -, -, -, e5, e6⟩ := idx_facts t
  have hq := q.isLt
  obtain ⟨cc, hcc⟩ : ∃ cc : Fin 1024, cc.val = win0_3.index t (1 : Fin 2) * 512 + q.val := ⟨⟨_, by omega⟩, rfl⟩
  have hemb : ((cfg0.win 3).blk t).view.emb (ix2 p q) = ix2 p cc := by
    funext a; apply Fin.ext
    match a with
    | ⟨0, _⟩ => show win0_3.index t (0 : Fin 2) * 32 + 1 * p.val = p.val; omega
    | ⟨1, _⟩ => show win0_3.index t (1 : Fin 2) * 512 + 1 * q.val = cc.val; omega
  show k0_pay1 (F := Ideal) (iblk m c 0 t) (wblock m c t) (iblk m c 2 t) (ix2 p q) = dense m c (((cfg0.win 3).blk t).view.emb (ix2 p q))
  rw [hemb, Payload.pay_apply]
  refine Eq.trans ?_ (Cert.TailDense.tail_apply _ _ _ p cc).symm
  refine congrArg₂ (· + ·) (Finset.sum_congr rfl fun k _ => ?_) ?_
  · rw [xblock_apply, wblock_apply m c t q k (Cert.TailDense.wrow cc) (Cert.TailDense.wcol k) (by show 7168 + cc.val = _; omega) rfl]
  · exact bblock_apply m c t q (Cert.TailDense.wrow cc) (by show 7168 + cc.val = _; omega)

/-- An index of the result is in point t's block iff each coordinate is in the block's range on its axis. -/
theorem mem_blk (t : Fin cfg0.N) (i : S32x1024.Idx) :
    i ∈ ((cfg0.win 3).blk t).view.set ↔ ∀ a : Fin 2, win0_3.index t a * S32x512.size a ≤ (i a).val ∧ (i a).val < win0_3.index t a * S32x512.size a + S32x512.size a := by
  show i ∈ ((View.whole main_v0).slice (win0_3.rect t)).set ↔ _
  rw [View.set_slice_whole, Rect.mem_set_unit]
  exact Iff.rfl

/-- Every index of the result lies in the block of the point that owns its column half. -/
theorem cover (i : S32x1024.Idx) : ∃ t : Fin cfg0.N, (cfg0.win 3).flush t = true ∧ i ∈ ((cfg0.win 3).blk t).view.set := by
  have hi0 : (i 0).val < 32 := (i 0).isLt
  have hi1 : (i 1).val < 1024 := (i 1).isLt
  obtain ⟨t, ht⟩ := idx_onto ⟨(i 1).val / 512, by omega⟩
  have q0 : win0_3.index t (0 : Fin 2) = 0 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 32 ≤ (i 0).val ∧ (i 0).val < win0_3.index t (0 : Fin 2) * 32 + 32; omega
  | ⟨1, _⟩ => show win0_3.index t (1 : Fin 2) * 512 ≤ (i 1).val ∧ (i 1).val < win0_3.index t (1 : Fin 2) * 512 + 512; omega

/-- The call's result array after the run is the dense layer. -/
theorem final (c : Dev nD) : (dats m 0 c).arrAt 3 cfg0.N = dense m c :=
  (dats m 0 c).arrAt_eq_of_cover 3 (dense m c) (fun t _ => flushed_eq m c t) cover

/-- After the column reversal that follows the call, the program's result buffer holds the reversed dense layer. -/
theorem tail_result (c : Dev nD) :
    Pipeline.afterTail₀ cfgs (dats m) 0 (V0 m) [hostOps1] c main_v1 = Host.reverse [1] (dense m c) := by
  unfold Pipeline.afterTail₀
  show StableHlo.after hostOps1 _ (Proc.devRef .tc main_v1) = _
  after_results
  exact congrArg (Host.reverse [1]) ((Pipeline.withArrays_arr spec0 launch0.win.arr_inj c _ _ 3).trans (final m c))

/-- The program's run, read: the result is the reversed dense layer of the argument arrays, which are unchanged. -/
theorem run : θ_run defs (onTc (τ := τ) (main (F := Ideal))) ⟨m, fun _ => 0, ρ⟩ fun r => ∀ c : Dev nD,
      r.2.mem ((c.tc : Thread nD τ).loc main_v1)
        = Host.reverse [1] (Cert.TailDense.tail (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v1 (Pipeline.mem_restRefs_of main_v1 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.TailValue

end
-- ==== Proof.LibScatterSet.lean ====
/-
  A "set" scatter read at one operand index.

  The host's scatter is a left fold over the update indices in row-major order; each step overwrites the
  operand entry the update's index vector names (when that entry is inside the operand) and leaves every
  other entry alone.  When the fold's body keeps the update (`fun _ b => b`), the entry at an operand index
  `i` after the fold is
    * the operand's own entry, if no update lands at `i`;
    * the update `upd j0`, if `j0` lands at `i` and every update that lands at `i` is `j0`.
  Nothing here depends on the shapes or on the element type.
-/
import Idealize.ShloMosaic.PureOps.ShapeOps

namespace Idealize.ShloMosaic.ScatterSet

open Idealize.ShloMosaic

variable {α : Type} {s si u : Shape} {w : Nat}

/-- One step of the scatter fold for the update at row-major position `n`, the body keeping the update. -/
def step (d : ScatterDims s si u) (idx : IVec si w) (upd : u.Idx → α) (r : s.Idx → α) (n : Fin u.numel) :
    s.Idx → α :=
  match d.resultIdx? (u.rowMajor.symm n) idx with
  | some i => fun i' => if i' = i then (fun (_ : α) (b : α) => b) (r i) (upd (u.rowMajor.symm n)) else r i'
  | none => r

/-- The scatter that keeps the update is the fold of `step`. -/
theorem scatter_eq_foldl (d : ScatterDims s si u) (x : s.Idx → α) (idx : IVec si w) (upd : u.Idx → α) :
    Host.scatter d (fun _ b => b) x idx upd = (List.finRange u.numel).foldl (step d idx upd) x := rfl

/-- A step whose update does not land at `i` leaves the entry at `i` alone. -/
theorem step_of_ne (d : ScatterDims s si u) (idx : IVec si w) (upd : u.Idx → α) (r : s.Idx → α)
    (n : Fin u.numel) (i : s.Idx) (h : d.resultIdx? (u.rowMajor.symm n) idx ≠ some i) :
    step d idx upd r n i = r i := by
  unfold step
  cases hr : d.resultIdx? (u.rowMajor.symm n) idx with
  | none => rfl
  | some i0 =>
    have hne : i ≠ i0 := fun e => h (by rw [hr, e])
    simp only [if_neg hne]

/-- A step whose update lands at `i` writes the update there. -/
theorem step_of_eq (d : ScatterDims s si u) (idx : IVec si w) (upd : u.Idx → α) (r : s.Idx → α)
    (n : Fin u.numel) (i : s.Idx) (h : d.resultIdx? (u.rowMajor.symm n) idx = some i) :
    step d idx upd r n i = upd (u.rowMajor.symm n) := by
  unfold step
  rw [h]
  exact if_pos rfl

/-- Folding steps none of which lands at `i` leaves the entry at `i` alone. -/
theorem foldl_of_none (d : ScatterDims s si u) (idx : IVec si w) (upd : u.Idx → α) (i : s.Idx) :
    ∀ (l : List (Fin u.numel)) (r : s.Idx → α),
      (∀ n ∈ l, d.resultIdx? (u.rowMajor.symm n) idx ≠ some i) → l.foldl (step d idx upd) r i = r i
  | [], _, _ => rfl
  | n :: t, r, h => by
    rw [List.foldl_cons, foldl_of_none d idx upd i t _ (fun m hm => h m (List.mem_cons_of_mem _ hm)),
      step_of_ne d idx upd r n i (h n (List.mem_cons_self ..))]

/-- Folding steps of which exactly the position `n0` (possibly repeated) lands at `i` leaves the update at `n0`
    there. -/
theorem foldl_of_unique (d : ScatterDims s si u) (idx : IVec si w) (upd : u.Idx → α) (i : s.Idx) (n0 : Fin u.numel)
    (h0 : d.resultIdx? (u.rowMajor.symm n0) idx = some i) :
    ∀ (l : List (Fin u.numel)) (r : s.Idx → α), n0 ∈ l →
      (∀ n ∈ l, d.resultIdx? (u.rowMajor.symm n) idx = some i → n = n0) →
      l.foldl (step d idx upd) r i = upd (u.rowMajor.symm n0)
  | [], _, hm, _ => absurd hm (List.not_mem_nil)
  | n :: t, r, hm, hu => by
    rw [List.foldl_cons]
    by_cases ht : n0 ∈ t
    · exact foldl_of_unique d idx upd i n0 h0 t _ ht (fun m hm' => hu m (List.mem_cons_of_mem _ hm'))
    · have hn : n = n0 := by
        rcases List.mem_cons.1 hm with e | e
        · exact e.symm
        · exact absurd e ht
      subst hn
      rw [foldl_of_none d idx upd i t _ (fun m hm' hhit => ht (hu m (List.mem_cons_of_mem _ hm') hhit ▸ hm')),
        step_of_eq d idx upd r n i h0]

/-- An update lands at the operand index `i` exactly when, on every axis, its window start plus its window
    coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hb =>
      have e := Option.some.inj h
      have ea : ((d.start j idx a + (d.window j a : Int)).toNat : Int) = ((i a).val : Int) := by
        rw [← e]
      have := (hb a).1
      omega
    · exact absurd h (by simp)
  · intro h
    have hb : ∀ a, 0 ≤ d.start j idx a + (d.window j a : Int) ∧ d.start j idx a + (d.window j a : Int) < s.size a := by
      intro a
      have := h a
      have hi := (i a).isLt
      omega
    rw [dif_pos hb]
    congr 1
    funext a
    apply Fin.ext
    have := h a
    show (d.start j idx a + (d.window j a : Int)).toNat = (i a).val
    omega

/-- THE SCATTER AT AN INDEX NO UPDATE LANDS AT: the operand's entry. -/
theorem scatter_apply_of_none (d : ScatterDims s si u) (x : s.Idx → α) (idx : IVec si w) (upd : u.Idx → α)
    (i : s.Idx) (h : ∀ j : u.Idx, d.resultIdx? j idx ≠ some i) :
    Host.scatter d (fun _ b => b) x idx upd i = x i := by
  rw [scatter_eq_foldl]
  exact foldl_of_none d idx upd i _ x (fun n _ => h _)

/-- THE SCATTER AT AN INDEX EXACTLY ONE UPDATE LANDS AT: that update. -/
theorem scatter_apply_of_unique (d : ScatterDims s si u) (x : s.Idx → α) (idx : IVec si w) (upd : u.Idx → α)
    (i : s.Idx) (j0 : u.Idx) (h0 : d.resultIdx? j0 idx = some i)
    (hu : ∀ j : u.Idx, d.resultIdx? j idx = some i → j = j0) :
    Host.scatter d (fun _ b => b) x idx upd i = upd j0 := by
  rw [scatter_eq_foldl]
  have e0 : u.rowMajor.symm (u.rowMajor j0) = j0 := u.rowMajor.symm_apply_apply j0
  have := foldl_of_unique d idx upd i (u.rowMajor j0) (by rw [e0]; exact h0) (List.finRange u.numel) x
    (List.mem_finRange _) (fun n _ hn => by
      have := hu _ hn
      rw [← this]; exact (u.rowMajor.apply_symm_apply n).symm)
  rw [this, e0]

end Idealize.ShloMosaic.ScatterSet
-- ==== Proof.RefTail.lean ====
/-
  The reference program's value before its last reversal, read index by index.

  The reference writes x into the first 1024 of 8192 state columns by a scatter whose one start index is zero,
  and writes the [8192, 8191] weight table into an [8192, 8192] matrix by a point scatter: table entry (n, j)
  goes to row n, column j when j < n and column j + 1 when j ≥ n.  Read at a state column k < 1024 the first
  scatter gives x(p, k), and at a column k ≥ 1024 the zero it started from.  Read at (7168 + c, k) with k < 1024 the
  second gives the table's (7168 + c, k): that is the only table entry sent there, since j + [j ≥ n] = k < n
  forces j < n and j = k.  In the product of the state with the transposed matrix, the state's zero columns
  contribute 0 · y = 0 whatever the matrix holds (the extended reals' product by zero is zero), so row p, output
  column 7168 + c is the dense layer's sum over k < 1024 plus the bias.
-/
import proofs.«109058_j21457656611332_2_alg».proof.Proof.Gen.ReferenceIdeal.Read
import proofs.«109058_j21457656611332_2_alg».proof.Proof.Spec
import proofs.«109058_j21457656611332_2_alg».proof.Proof.LibScatterSet

noncomputable section

namespace Cert.ReferenceIdeal.RefTail

open Cert.ReferenceIdeal Cert.ReferenceIdeal.Gen Cert.ReferenceIdeal.Read Idealize.ShloMosaic
open Idealize.ShloMosaic.ValueIdx Idealize.ShloMosaic.ScatterSet

/-! ## 32-bit words of small natural numbers -/

/-- A natural number below 2³¹, as a 32-bit word, reads back signed as itself. -/
theorem toInt_ofNat32 (n : Nat) (h : n < 2147483648) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- Such a word is not negative. -/
theorem cmpi_slt_zero (n : Nat) (h : n < 2147483648) : IntOp.cmpi .slt (BitVec.ofNat 32 n) 0#32 = 0#1 := by
  show BitVec.ofBool ((BitVec.ofNat 32 n).slt 0#32) = 0#1
  rw [BitVec.slt_eq_decide, toInt_ofNat32 n h]
  have h0 : (0#32).toInt = 0 := by decide
  rw [h0, decide_eq_false (by omega)]; rfl

/-- The signed comparison "j ≥ n" of two such words is the comparison of the numbers. -/
theorem cmpi_sge (j n : Nat) (hj : j < 2147483648) (hn : n < 2147483648) :
    IntOp.cmpi .sge (BitVec.ofNat 32 j) (BitVec.ofNat 32 n) = if n ≤ j then 1#1 else 0#1 := by
  show BitVec.ofBool ((BitVec.ofNat 32 n).sle (BitVec.ofNat 32 j)) = _
  rw [BitVec.sle_eq_decide, toInt_ofNat32 n hn, toInt_ofNat32 j hj]
  by_cases h : n ≤ j
  · rw [if_pos h, decide_eq_true (by omega)]; rfl
  · rw [if_neg h, decide_eq_false (by omega)]; rfl

/-- The column word: j plus the bit "j ≥ n", wrapped around 8192 when negative (it never is). -/
theorem col_word (j n : Nat) (hj : j < 8191) (hn : n < 8192) :
    Scalar.select
      (IntOp.cmpi .slt (IntOp.addi (BitVec.ofNat 32 j) ((IntOp.cmpi .sge (BitVec.ofNat 32 j) (BitVec.ofNat 32 n)).setWidth 32)) 0#32)
      (IntOp.addi (IntOp.addi (BitVec.ofNat 32 j) ((IntOp.cmpi .sge (BitVec.ofNat 32 j) (BitVec.ofNat 32 n)).setWidth 32)) 8192#32)
      (IntOp.addi (BitVec.ofNat 32 j) ((IntOp.cmpi .sge (BitVec.ofNat 32 j) (BitVec.ofNat 32 n)).setWidth 32))
      = BitVec.ofNat 32 (j + if n ≤ j then 1 else 0) := by
  have e : IntOp.addi (BitVec.ofNat 32 j) ((IntOp.cmpi .sge (BitVec.ofNat 32 j) (BitVec.ofNat 32 n)).setWidth 32)
      = BitVec.ofNat 32 (j + if n ≤ j then 1 else 0) := by
    rw [cmpi_sge j n (by omega) (by omega)]
    by_cases h : n ≤ j
    · rw [if_pos h, if_pos h]
      show BitVec.ofNat 32 j + BitVec.ofNat 32 1 = _
      rw [← BitVec.ofNat_add]
    · rw [if_neg h, if_neg h]
      show BitVec.ofNat 32 j + BitVec.ofNat 32 0 = _
      rw [← BitVec.ofNat_add]
  rw [e, cmpi_slt_zero _ (by split <;> omega)]
  exact select_zero _ _

/-! ## The first scatter: x into the first 1024 state columns -/

/-- The first scatter's dimension numbers: a [32, 1024] window placed at the start (0, s) for the one start
    index s. -/
abbrev d1 := scatter_S32x8192_S1_S32x1024_01_n_1_0

theorem d1_start0 (j : S32x1024.Idx) (idx : IVec S1 32) : d1.start j idx (0 : Fin S32x8192.rank) = 0 := by
  unfold ScatterDims.start
  rw [dif_neg (show ¬ (0 : Fin S32x8192.rank) ∈ d1.scatterDimsToOperandDims by decide)]

theorem d1_start1 (j : S32x1024.Idx) (idx : IVec S1 32) (h : ∀ k, idx k = 0#32) :
    d1.start j idx (1 : Fin S32x8192.rank) = 0 := by
  unfold ScatterDims.start
  rw [dif_pos (show (1 : Fin S32x8192.rank) ∈ d1.scatterDimsToOperandDims by decide), h]
  rfl

theorem d1_window0 (j : S32x1024.Idx) : d1.window j (0 : Fin S32x8192.rank) = (j 0).val := by
  unfold ScatterDims.window
  rw [dif_pos (show (0 : Fin S32x8192.rank) ∈ d1.sKept by decide)]
  rfl

theorem d1_window1 (j : S32x1024.Idx) : d1.window j (1 : Fin S32x8192.rank) = (j 1).val := by
  unfold ScatterDims.window
  rw [dif_pos (show (1 : Fin S32x8192.rank) ∈ d1.sKept by decide)]
  rfl

/-- The one start index is the zero word. -/
theorem v1_zero (k : S1.Idx) : val_main_v1 (F := Ideal) k = 0#32 := by
  rw [val_main_v1_apply, val_main_c_apply]

/-- Update (a, b) of the first scatter lands at operand entry (a, b). -/
theorem d1_lands (j : S32x1024.Idx) (p : Fin 32) (k : Fin 8192) :
    d1.resultIdx? j (val_main_v1 (F := Ideal)) = some (ix2 p k) ↔ (j 0).val = p.val ∧ (j 1).val = k.val := by
  rw [resultIdx?_eq_some_iff]
  have s0 := d1_start0 j (val_main_v1 (F := Ideal))
  have s1 := d1_start1 j (val_main_v1 (F := Ideal)) v1_zero
  have w0 := d1_window0 j
  have w1 := d1_window1 j
  constructor
  · intro h
    have h0 := h (0 : Fin S32x8192.rank)
    have h1 := h (1 : Fin S32x8192.rank)
    rw [s0, w0] at h0
    rw [s1, w1] at h1
    have e0 : (((ix2 p k : S32x8192.Idx) (0 : Fin S32x8192.rank)).val : Int) = (p.val : Int) := rfl
    have e1 : (((ix2 p k : S32x8192.Idx) (1 : Fin S32x8192.rank)).val : Int) = (k.val : Int) := rfl
    rw [e0] at h0
    rw [e1] at h1
    exact ⟨by omega, by omega⟩
  · rintro ⟨h0, h1⟩ a
    match a with
    | ⟨0, _⟩ =>
      show d1.start j _ (0 : Fin S32x8192.rank) + (d1.window j (0 : Fin S32x8192.rank) : Int) = (p.val : Int)
      rw [s0, w0]; omega
    | ⟨1, _⟩ =>
      show d1.start j _ (1 : Fin S32x8192.rank) + (d1.window j (1 : Fin S32x8192.rank) : Int) = (k.val : Int)
      rw [s1, w1]; omega

/-- A state column below 1024 holds x's entry. -/
theorem state_lt (x0 : (⟨S32x1024, .f32⟩ : BufTy).Contents (Elt Ideal)) (p : Fin 32) (k : Fin 8192) (hk : k.val < 1024) :
    val_main_v2 (F := Ideal) x0 (ix2 p k) = x0 (ix2 p (⟨k.val, hk⟩ : Fin 1024)) := by
  unfold val_main_v2
  refine scatter_apply_of_unique d1 _ _ x0 (ix2 p k) (ix2 p (⟨k.val, hk⟩ : Fin 1024))
    ((d1_lands _ p k).2 ⟨rfl, rfl⟩) (fun j hj => ?_)
  obtain ⟨h0, h1⟩ := (d1_lands j p k).1 hj
  have e0 : j 0 = p := Fin.ext h0
  have e1 : j 1 = (⟨k.val, hk⟩ : Fin 1024) := Fin.ext h1
  rw [eq_ix2 j, e0, e1]
  rfl

/-- A state column from 1024 on holds the zero the scatter started from. -/
theorem state_ge (x0 : (⟨S32x1024, .f32⟩ : BufTy).Contents (Elt Ideal)) (p : Fin 32) (k : Fin 8192) (hk : 1024 ≤ k.val) :
    val_main_v2 (F := Ideal) x0 (ix2 p k) = 0 := by
  unfold val_main_v2
  rw [scatter_apply_of_none d1 _ _ x0 (ix2 p k) (fun j hj => by
    obtain ⟨_, h1⟩ := (d1_lands j p k).1 hj
    have := idx2_lt1 j
    omega)]
  rw [val_main_v0_apply, val_main_cst_apply]
  exact Ideal.ofBits_zero_f32

/-! ## The index planes of the second scatter -/

/-- The row plane holds the row number. -/
theorem v27_row (n : Fin 8192) (j : Fin 8191) :
    val_main_v27 (F := Ideal) (ix3 n j (0 : Fin 2)) = BitVec.ofNat 32 n.val := by
  unfold val_main_v27
  rw [concatenate_pair_apply_left (s₁ := S8192x8191x1) (s₂ := S8192x8191x1) (2 : Fin S8192x8191x2.rank) _ _ _ (ix3 n j (0 : Fin 2)) rfl (ix3 n j (0 : Fin 1))
    (fun b => match b with | ⟨0, _⟩ => rfl | ⟨1, _⟩ => rfl | ⟨2, _⟩ => rfl)]
  simp only [val_main_v25_apply, val_main_v24_apply, val_main_v18_apply, val_main_v15_apply, val_main_v4_apply,
    val_main_v3_apply, val_main_v14_apply, val_main_c_1_apply]
  show Scalar.select (IntOp.cmpi .slt (BitVec.ofNat 32 n.val) 0#32) _ (BitVec.ofNat 32 n.val) = _
  rw [cmpi_slt_zero _ (by have := n.isLt; omega)]
  exact select_zero _ _

/-- The column plane holds j, or j + 1 from the diagonal on. -/
theorem v27_col (n : Fin 8192) (j : Fin 8191) :
    val_main_v27 (F := Ideal) (ix3 n j (1 : Fin 2)) = BitVec.ofNat 32 (j.val + if n.val ≤ j.val then 1 else 0) := by
  unfold val_main_v27
  rw [concatenate_pair_apply_right (s₁ := S8192x8191x1) (s₂ := S8192x8191x1) (2 : Fin S8192x8191x2.rank) _ _ _ (ix3 n j (1 : Fin 2)) rfl rfl (ix3 n j (0 : Fin 1))
    (fun b => match b with
      | ⟨0, _⟩ => fun _ => rfl
      | ⟨1, _⟩ => fun _ => rfl
      | ⟨2, _⟩ => fun h => absurd rfl h) rfl]
  simp only [val_main_v26_apply, val_main_v23_apply, val_main_v20_apply, val_main_v22_apply, val_main_v12_apply,
    val_main_v19_apply, val_main_c_3_apply, val_main_v21_apply, val_main_c_4_apply, val_main_v11_apply,
    val_main_v10_apply, val_main_v9_apply, val_main_v7_apply, val_main_v8_apply, val_main_v6_apply,
    val_main_v5_apply, val_main_v4_apply, val_main_v3_apply]
  exact col_word j.val n.val j.isLt n.isLt

/-! ## The second scatter: the weight table into the matrix with an empty diagonal -/

/-- The second scatter's dimension numbers: one element per update, at the (row, column) its index vector names. -/
abbrev d2 := scatter_S8192x8192_S8192x8191x2_S8192x8191_n_01_01_2

theorem d2_start0 (j : S8192x8191.Idx) (idx : IVec S8192x8191x2 32) :
    d2.start j idx (0 : Fin S8192x8192.rank) = (idx (ix3 (⟨(j 0).val, idx2_lt0 j⟩ : Fin 8192) (⟨(j 1).val, idx2_lt1 j⟩ : Fin 8191) (0 : Fin 2))).toInt := by
  unfold ScatterDims.start
  rw [dif_pos (show (0 : Fin S8192x8192.rank) ∈ d2.scatterDimsToOperandDims by decide)]
  have hsi : d2.siIdx j ⟨List.idxOf (0 : Fin S8192x8192.rank) d2.scatterDimsToOperandDims,
      List.idxOf_lt_length_iff.2 (by decide)⟩ = ix3 (⟨(j 0).val, idx2_lt0 j⟩ : Fin 8192) (⟨(j 1).val, idx2_lt1 j⟩ : Fin 8191) (0 : Fin 2) := by
    funext b; refine Fin.ext ?_
    match b with
    | ⟨0, _⟩ => rfl
    | ⟨1, _⟩ => rfl
    | ⟨2, _⟩ => rfl
  rw [hsi]

theorem d2_start1 (j : S8192x8191.Idx) (idx : IVec S8192x8191x2 32) :
    d2.start j idx (1 : Fin S8192x8192.rank) = (idx (ix3 (⟨(j 0).val, idx2_lt0 j⟩ : Fin 8192) (⟨(j 1).val, idx2_lt1 j⟩ : Fin 8191) (1 : Fin 2))).toInt := by
  unfold ScatterDims.start
  rw [dif_pos (show (1 : Fin S8192x8192.rank) ∈ d2.scatterDimsToOperandDims by decide)]
  have hsi : d2.siIdx j ⟨List.idxOf (1 : Fin S8192x8192.rank) d2.scatterDimsToOperandDims,
      List.idxOf_lt_length_iff.2 (by decide)⟩ = ix3 (⟨(j 0).val, idx2_lt0 j⟩ : Fin 8192) (⟨(j 1).val, idx2_lt1 j⟩ : Fin 8191) (1 : Fin 2) := by
    funext b; refine Fin.ext ?_
    match b with
    | ⟨0, _⟩ => rfl
    | ⟨1, _⟩ => rfl
    | ⟨2, _⟩ => rfl
  rw [hsi]

theorem d2_window0 (j : S8192x8191.Idx) : d2.window j (0 : Fin S8192x8192.rank) = 0 := by
  unfold ScatterDims.window
  rw [dif_neg (show ¬ (0 : Fin S8192x8192.rank) ∈ d2.sKept by decide)]

theorem d2_window1 (j : S8192x8191.Idx) : d2.window j (1 : Fin S8192x8192.rank) = 0 := by
  unfold ScatterDims.window
  rw [dif_neg (show ¬ (1 : Fin S8192x8192.rank) ∈ d2.sKept by decide)]

/-- Table entry (n, j) lands at row n, column j + [n ≤ j]. -/
theorem d2_lands (j : S8192x8191.Idx) (r c : Fin 8192) :
    d2.resultIdx? j (val_main_v27 (F := Ideal)) = some (ix2 r c) ↔
      (j 0).val = r.val ∧ (j 1).val + (if (j 0).val ≤ (j 1).val then 1 else 0) = c.val := by
  rw [resultIdx?_eq_some_iff]
  have l0 := idx2_lt0 j
  have l1 := idx2_lt1 j
  have s0 : d2.start j (val_main_v27 (F := Ideal)) (0 : Fin S8192x8192.rank) = ((j 0).val : Int) := by
    rw [d2_start0, v27_row]
    exact toInt_ofNat32 (j 0).val (by omega)
  have s1 : d2.start j (val_main_v27 (F := Ideal)) (1 : Fin S8192x8192.rank)
      = (((j 1).val + (if (j 0).val ≤ (j 1).val then 1 else 0) : Nat) : Int) := by
    rw [d2_start1, v27_col]
    exact toInt_ofNat32 ((j 1).val + (if (j 0).val ≤ (j 1).val then 1 else 0)) (by split <;> omega)
  have w0 := d2_window0 j
  have w1 := d2_window1 j
  constructor
  · intro h
    have h0 := h (0 : Fin S8192x8192.rank)
    have h1 := h (1 : Fin S8192x8192.rank)
    rw [s0, w0] at h0
    rw [s1, w1] at h1
    have e0 : (((ix2 r c : S8192x8192.Idx) (0 : Fin S8192x8192.rank)).val : Int) = (r.val : Int) := rfl
    have e1 : (((ix2 r c : S8192x8192.Idx) (1 : Fin S8192x8192.rank)).val : Int) = (c.val : Int) := rfl
    rw [e0] at h0
    rw [e1] at h1
    exact ⟨by omega, by omega⟩
  · rintro ⟨h0, h1⟩ a
    match a with
    | ⟨0, _⟩ =>
      show d2.start j _ (0 : Fin S8192x8192.rank) + (d2.window j (0 : Fin S8192x8192.rank) : Int) = (r.val : Int)
      rw [s0, w0]; omega
    | ⟨1, _⟩ =>
      show d2.start j _ (1 : Fin S8192x8192.rank) + (d2.window j (1 : Fin S8192x8192.rank) : Int) = (c.val : Int)
      rw [s1, w1]; omega

open Cert.TailDense in
/-- Below the diagonal the matrix holds the table: entry (7168 + c, k), k < 1024, is the table's (7168 + c, k). -/
theorem wfull_apply (x1 : (⟨S8192x8191, .f32⟩ : BufTy).Contents (Elt Ideal)) (c k : Fin 1024) :
    val_main_v28 (F := Ideal) x1 (ix2 (wrow c) (⟨k.val, by have := k.isLt; omega⟩ : Fin 8192))
      = x1 (ix2 (wrow c) (wcol k)) := by
  unfold val_main_v28
  have hk := k.isLt
  refine scatter_apply_of_unique d2 _ _ x1 _ (ix2 (wrow c) (wcol k)) ((d2_lands _ _ _).2 ⟨rfl, ?_⟩) (fun j hj => ?_)
  · show k.val + (if 7168 + c.val ≤ k.val then 1 else 0) = k.val
    split <;> omega
  · obtain ⟨h0, h1⟩ := (d2_lands j _ _).1 hj
    have h0' : (j 0).val = 7168 + c.val := h0
    have h1' : (j 1).val + (if (j 0).val ≤ (j 1).val then 1 else 0) = k.val := h1
    have e1 : (j 1).val = k.val := by split at h1' <;> omega
    have f0 : j 0 = wrow c := Fin.ext h0'
    have f1 : j 1 = wcol k := Fin.ext e1
    rw [eq_ix2 j, f0, f1]
    rfl

/-! ## The product, the bias and the slice -/

/-- A sum over a + b terms whose last b vanish is the sum of the first a. -/
theorem sum_univ_add_of_zero {M : Type*} [AddCommMonoid M] {a b : Nat} (g : Fin (a + b) → M)
    (h : ∀ i : Fin b, g (Fin.natAdd a i) = 0) : ∑ k, g k = ∑ k : Fin a, g (Fin.castAdd b k) := by
  rw [Fin.sum_univ_add, Finset.sum_eq_zero (fun i _ => h i), add_zero]

open Cert.TailDense in
/-- THE REFERENCE BEFORE ITS LAST REVERSAL is the dense layer on the last 1024 output nodes. -/
theorem ref_tail (x0 : (⟨S32x1024, .f32⟩ : BufTy).Contents (Elt Ideal))
    (x1 : (⟨S8192x8191, .f32⟩ : BufTy).Contents (Elt Ideal)) (x2 : (⟨S8192, .f32⟩ : BufTy).Contents (Elt Ideal)) :
    Cert.ReferenceIdeal.Read.val_main_v34 x0 x1 x2 = Cert.TailDense.tail x0 x1 x2 := by
  funext i
  obtain ⟨p, c, rfl⟩ : ∃ (p : Fin 32) (c : Fin 1024), i = ix2 p c := ⟨i 0, i 1, eq_ix2 i⟩
  rw [val_main_v34_apply, val_main_v33_apply, val_main_v30_apply, val_main_v32_apply, val_main_v31_apply, tail_apply]
  -- the bias is read at node 7168 + c
  have eb : idx_main_v31 (idx_main_v32 (idx_main_v34 (ix2 p c))) = ix1 (wrow c) := by
    funext a; match a with | ⟨0, _⟩ => rfl
  rw [eb]
  -- each term of the product: state (p, k) times the matrix entry (7168 + c, k)
  have hs : ∀ k : Fin 8192,
      val_main_v2 (F := Ideal) x0 (lidx_main_v30 (idx_main_v34 (ix2 p c)) k)
          * val_main_v29 (F := Ideal) x1 (ridx_main_v30 (idx_main_v34 (ix2 p c)) k)
        = val_main_v2 (F := Ideal) x0 (ix2 p k) * val_main_v28 (F := Ideal) x1 (ix2 (wrow c) k) := by
    intro k
    rw [val_main_v29_apply]
    have el : lidx_main_v30 (idx_main_v34 (ix2 p c)) k = ix2 p k := by
      funext a; match a with | ⟨0, _⟩ => rfl | ⟨1, _⟩ => rfl
    have er : idx_main_v29 (ridx_main_v30 (idx_main_v34 (ix2 p c)) k) = ix2 (wrow c) k := by
      funext a; match a with | ⟨0, _⟩ => rfl | ⟨1, _⟩ => rfl
    rw [el, er]
  have hsum : (∑ k : Fin 8192, val_main_v2 (F := Ideal) x0 (lidx_main_v30 (idx_main_v34 (ix2 p c)) k)
        * val_main_v29 (F := Ideal) x1 (ridx_main_v30 (idx_main_v34 (ix2 p c)) k))
      = ∑ k : Fin 1024, x0 (ix2 p k) * x1 (ix2 (wrow c) (wcol k)) := by
    rw [Finset.sum_congr rfl (fun k _ => hs k)]
    -- the state's columns from 1024 on are zero, and zero times anything is zero
    refine (sum_univ_add_of_zero (a := 1024) (b := 7168)
      (fun k => val_main_v2 (F := Ideal) x0 (ix2 p k) * val_main_v28 (F := Ideal) x1 (ix2 (wrow c) k)) (fun i => ?_)).trans ?_
    · show val_main_v2 (F := Ideal) x0 (ix2 p (Fin.natAdd 1024 i)) * _ = 0
      rw [state_ge x0 p _ (by show 1024 ≤ 1024 + i.val; omega), zero_mul]
    · refine Finset.sum_congr rfl (fun k _ => ?_)
      have e2 : val_main_v2 (F := Ideal) x0 (ix2 p (Fin.castAdd 7168 k)) = x0 (ix2 p k) :=
        state_lt x0 p (Fin.castAdd 7168 k) k.isLt
      have e28 : val_main_v28 (F := Ideal) x1 (ix2 (wrow c) (Fin.castAdd 7168 k)) = x1 (ix2 (wrow c) (wcol k)) :=
        wfull_apply x1 c k
      show val_main_v2 (F := Ideal) x0 (ix2 p (Fin.castAdd 7168 k)) * val_main_v28 (F := Ideal) x1 (ix2 (wrow c) (Fin.castAdd 7168 k)) = _
      rw [e2, e28]
  rw [hsum]
  rfl

end Cert.ReferenceIdeal.RefTail

end
-- ==== Proof.lean ====
/-
  The claim: the kernel against its reference, as programs over the extended reals.

  The reference scatters x into the first 1024 of 8192 state columns, spreads the [8192, 8191] weight table
  into an [8192, 8192] matrix with an empty diagonal, multiplies, adds the bias, keeps the last 1024 columns and
  reverses them.  The kernel multiplies x by the first 1024 columns of the last 1024 rows of the weight table,
  adds the last 1024 bias entries, and reverses the columns.  Both are the column reversal of one dense layer
  (`Cert.TailDense.tail`): on the kernel's side because the two blocks its grid writes back are the two halves
  of that array (ValueIdeal.lean), on the reference's side because every state column from 1024 on is zero —
  and zero times any extended real is zero — while for an output node n ≥ 7168 and a state column j < 1024 the
  spread matrix's entry (n, j) is the table's entry (n, j) (RefTail.lean).  No finiteness of the inputs is used.

  The three frames: each kernel program's from its body's triple under the pipeline's launch theorems (BodyBits.lean,
  BodyIdeal.lean), the reference's from its run.  The idealization rewrote nothing, so its claim is trivial.
-/
import proofs.«109058_j21457656611332_2_alg».proof.Defs
import proofs.«109058_j21457656611332_2_alg».proof.Proof.Gen.Kernel
import proofs.«109058_j21457656611332_2_alg».proof.Proof.Gen.KernelIdeal
import proofs.«109058_j21457656611332_2_alg».proof.Proof.Gen.ReferenceIdeal
import proofs.«109058_j21457656611332_2_alg».proof.Proof.Gen.ReferenceIdeal.Run
import proofs.«109058_j21457656611332_2_alg».proof.Proof.Gen.ReferenceIdeal.Read
import proofs.«109058_j21457656611332_2_alg».proof.Proof.Gen.Pre_finite_inputs
import proofs.«109058_j21457656611332_2_alg».proof.Proof.BodyBits
import proofs.«109058_j21457656611332_2_alg».proof.Proof.ValueIdeal
import proofs.«109058_j21457656611332_2_alg».proof.Proof.RefTail
import Idealize.ShloMosaic.Adequacy
import Idealize.ShloMosaic.Init

noncomputable section

namespace Cert.Proof

open Idealize.ShloMosaic Idealize.SL.Sem

/-- The kernel as printed runs to the end, faults nowhere and leaves its arguments unchanged. -/
theorem frame_kernel : Cert.frame_Kernel := fun m ρ _ => Cert.Kernel.Body.frame m ρ

/-- So does the idealized kernel. -/
theorem frame_kernelIdeal : Cert.frame_KernelIdeal := fun m ρ _ => Cert.KernelIdeal.Body.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reversed dense layer of those arguments. -/
theorem algebraic : Cert.algebraic_KernelIdeal_ReferenceIdeal := by
  intro m ρ m' ρ' _ hagree
  refine ⟨_, Cert.KernelIdeal.TailValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v35_eq _ _ _).trans
    (congrArg (Host.reverse [1]) (Cert.ReferenceIdeal.RefTail.ref_tail _ _ _))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
